-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x256 : Shape := ⟨2, ![32, 256]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_

variable [Facts]

def fn {F : FTy → Type} [FloatOps F] (main_arg0 : FVec F S16384x32 .f32) (main_arg1 : FVec F S32x256 .f32) (main_arg2 : FVec F S32x256 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32x256 .f32 := Host.absf main_arg2
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  main_v13
-- ==== Kernel.lean ====
abbrev S16384x32 : Shape := ⟨2, ![16384, 32]⟩
abbrev S32x256 : Shape := ⟨2, ![32, 256]⟩
abbrev S16384x32x256 : Shape := ⟨3, ![16384, 32, 256]⟩
abbrev S512x32 : Shape := ⟨2, ![512, 32]⟩
abbrev S512x32x256 : Shape := ⟨3, ![512, 32, 256]⟩
abbrev S128x32 : Shape := ⟨2, ![128, 32]⟩
abbrev S128x32x1 : Shape := ⟨3, ![128, 32, 1]⟩
abbrev S1x32x256 : Shape := ⟨3, ![1, 32, 256]⟩
abbrev S128x32x256 : Shape := ⟨3, ![128, 32, 256]⟩

abbrev nBuf : Space → Nat
  | .hbm => 4
  | .vmem => 6
  | .smem => 0
  | _ => 0

abbrev bufTy : (tb : Table) → Fin (tcTables nBuf tb) → BufTy
  | .hbm, ⟨0, _⟩ => ⟨S16384x32, .f32⟩
  | .hbm, ⟨1, _⟩ => ⟨S32x256, .f32⟩
  | .hbm, ⟨2, _⟩ => ⟨S32x256, .f32⟩
  | .hbm, ⟨3, _⟩ => ⟨S16384x32x256, .f32⟩
  | .local _ .vmem, ⟨0, _⟩ => ⟨S512x32, .f32⟩
  | .local _ .vmem, ⟨1, _⟩ => ⟨S512x32, .f32⟩
  | .local _ .vmem, ⟨2, _⟩ => ⟨S32x256, .f32⟩
  | .local _ .vmem, ⟨3, _⟩ => ⟨S32x256, .f32⟩
  | .local _ .vmem, ⟨4, _⟩ => ⟨S512x32x256, .f32⟩
  | .local _ .vmem, ⟨5, _⟩ => ⟨S512x32x256, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c128_i32 : BitVec 32 := 128#32
  let v2 : BitVec 32 := Scalar.muli c0_i32 c128_i32
  v2
def k0_off1 (c0_i32 : BitVec 32) : Fin 2 → Nat :=
  let c128_i32 : BitVec 32 := 128#32
  let v2 : BitVec 32 := Scalar.muli c0_i32 c128_i32
  let v3 : BitVec 32 := v2
  let v4 : Index := Scalar.indexCast v3
  let c0_3 : Index := 0#32
  ![v4.toNat, 0]
def k0_off2 (c0_i32 : BitVec 32) : Fin 3 → Nat :=
  let c128_i32 : BitVec 32 := 128#32
  let v2 : BitVec 32 := Scalar.muli c0_i32 c128_i32
  let v3 : BitVec 32 := v2
  let v14 : Index := Scalar.indexCast v3
  let c0_4 : Index := 0#32
  let c0_5 : Index := 0#32
  ![v14.toNat, 0, 0]
def k0_mult2 : BitVec 32 :=
  let c1_i32 : BitVec 32 := 1#32
  let c128_i32_6 : BitVec 32 := 128#32
  let v16 : BitVec 32 := Scalar.muli c1_i32 c128_i32_6
  v16
def k0_mult3 : BitVec 32 :=
  let c2_i32 : BitVec 32 := 2#32
  let c128_i32_10 : BitVec 32 := 128#32
  let v30 : BitVec 32 := Scalar.muli c2_i32 c128_i32_10
  v30
def k0_mult4 : BitVec 32 :=
  let c3_i32 : BitVec 32 := 3#32
  let c128_i32_14 : BitVec 32 := 128#32
  let v44 : BitVec 32 := Scalar.muli c3_i32 c128_i32_14
  v44
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S32x256_S32x256_0_0 : ∀ a, (![0, 0] : Fin 2 → Nat) a + S32x256.size a ≤ S32x256.size a
  h_S32x256 : 0 < S32x256.numel
  h_S128x32 : 0 < S128x32.numel
  shapeCasts_S128x32_S128x32x1 : S128x32.ShapeCasts S128x32x1
  shapeCasts_S32x256_S1x32x256 : S32x256.ShapeCasts S1x32x256
  broadcasts_S128x32x1_S128x32x256 : S128x32x1.Broadcasts S128x32x256
  broadcasts_S1x32x256_S128x32x256 : S1x32x256.Broadcasts S128x32x256
  h_S128x32x256 : 0 < S128x32x256.numel
  hrank0 : 0 < grid0.rank
  k0_mult1_dvd : 128 ∣ k0_mult1.toNat
  k0_off1_inb : ∀ (r : Fin 4), ∀ a, (k0_off1 (BitVec.ofNat 32 r.val)) a + S128x32.size a ≤ S512x32.size a
  k0_off2_inb : ∀ (r : Fin 4), ∀ a, (k0_off2 (BitVec.ofNat 32 r.val)) a + S128x32x256.size a ≤ S512x32x256.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S16384x32.size a
  hwx0_0 : ∀ i : grid0.Coords, EltTy.bits .f32 = 32 ∨ (Rect.block (s := S16384x32) S512x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .f32 = 32 ∨ (Rect.block (s := S32x256) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32x256.size a ≤ S16384x32x256.size a
  hwx0_3 : ∀ i : grid0.Coords, EltTy.bits .f32 = 32 ∨ (Rect.block (s := S16384x32x256) S512x32x256.size (cc0_transform_3 i) (hinb0_3 i)).WholeWords (EltTy.packing .f32)

variable [Facts₀]

abbrev win0_0 : Pipeline.Window sig grid0 :=
  Pipeline.Window.ofSpec (Memref.whole main_arg0) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x256 : Shape := ⟨2, ![32, 256]⟩
abbrev S16384x32x1 : Shape := ⟨3, ![16384, 32, 1]⟩
abbrev S1x32x256 : Shape := ⟨3, ![1, 32, 256]⟩
abbrev S16384x32x256 : Shape := ⟨3, ![16384, 32, 256]⟩

abbrev nBuf : Space → Nat
  | .hbm => 11
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S32x256, .f32⟩
  | .hbm, ⟨2, _⟩ => ⟨S32x256, .f32⟩
  | .hbm, ⟨3, _⟩ => ⟨S16384x32x1, .f32⟩
  | .hbm, ⟨4, _⟩ => ⟨S1x32x256, .f32⟩
  | .hbm, ⟨5, _⟩ => ⟨S16384x32x256, .f32⟩
  | .hbm, ⟨6, _⟩ => ⟨S16384x32x256, .f32⟩
  | .hbm, ⟨7, _⟩ => ⟨S16384x32x256, .f32⟩
  | .hbm, ⟨8, _⟩ => ⟨S1x32x256, .f32⟩
  | .hbm, ⟨9, _⟩ => ⟨S16384x32x256, .f32⟩
  | .hbm, ⟨10, _⟩ => ⟨S16384x32x256, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S16384x32_S16384x32x1_0_1 : S16384x32.BroadcastsInDim S16384x32x1 (![0, 1] : Fin 2 → Fin S16384x32x1.rank)
  bcast_S32x256_S1x32x256_1_2 : S32x256.BroadcastsInDim S1x32x256 (![1, 2] : Fin 2 → Fin S1x32x256.rank)
  bcast_S16384x32x1_S16384x32x256_0_1_2 : S16384x32x1.BroadcastsInDim S16384x32x256 (![0, 1, 2] : Fin 3 → Fin S16384x32x256.rank)
  bcast_S1x32x256_S16384x32x256_0_1_2 : S1x32x256.BroadcastsInDim S16384x32x256 (![0, 1, 2] : Fin 3 → Fin S16384x32x256.rank)

variable [Facts₀]

class Facts : Prop extends Facts₀ where

variable [Facts]
-- ==== Proof.Spec.lean ====
/-
  The function both programs compute: a per-feature affine map applied entry by entry,

      out[r, i, f] = x[r, i] * W[i, f] + b[i, f]        (r a batch row, i one of 32 inputs, f one of 256 features).

  Each output entry depends on exactly one entry of `x`, one of `W` and one of `b`; nothing is summed. It is
  stated for a batch of ANY number `n` of rows, because the same formula describes the whole array (`n = 16384`), one
  grid block of it (`n = 512`) and one chunk of a block (`n = 128`): a block of the output is the formula applied to
  the matching block of rows of `x`, with `W` and `b` unchanged.
-/
import Idealize.ShloMosaic.PureOps.Ideal
import Idealize.ShloMosaic.Lib.ValueIdx

namespace Cert.Proj

open Idealize.ShloMosaic Idealize.ShloMosaic.ValueIdx

variable {F : FTy → Type} [FloatOps F]

/-- `affine x W b` at `(r, i, f)` is `x (r, i) * W (i, f) + b (i, f)`, over a batch of `n` rows. -/
def affine {n : ℕ} (x : (⟨2, ![n, 32]⟩ : Shape).Idx → F .f32) (W b : (⟨2, ![32, 256]⟩ : Shape).Idx → F .f32) :
    (⟨3, ![n, 32, 256]⟩ : Shape).Idx → F .f32 :=
  fun y => FloatOps.addf (FloatOps.mulf (x (ix2 (y 0) (y 1))) (W (ix2 (y 1) (y 2)))) (b (ix2 (y 1) (y 2)))

/-- The formula at an index written by its coordinates. -/
theorem affine_ix3 {n : ℕ} (x : (⟨2, ![n, 32]⟩ : Shape).Idx → F .f32) (W b : (⟨2, ![32, 256]⟩ : Shape).Idx → F .f32)
    (r : Fin n) (i : Fin 32) (f : Fin 256) :
    affine x W b (ix3 r i f) = FloatOps.addf (FloatOps.mulf (x (ix2 r i)) (W (ix2 i f))) (b (ix2 i f)) := rfl

/-- Rows are independent: if the rows of `x'` (a batch of `n'`) are the rows of `x` from row `o` on, then the output
    rows of `x'` are the output rows of `x` from row `o` on. -/
theorem affine_rows {n n' : ℕ} (x : (⟨2, ![n, 32]⟩ : Shape).Idx → F .f32) (x' : (⟨2, ![n', 32]⟩ : Shape).Idx → F .f32)
    (W b : (⟨2, ![32, 256]⟩ : Shape).Idx → F .f32) (r' : Fin n') (r : Fin n) (i : Fin 32) (f : Fin 256)
    (hx : x' (ix2 r' i) = x (ix2 r i)) :
    affine x' W b (ix3 r' i f) = affine x W b (ix3 r i f) := by
  rw [affine_ix3, affine_ix3, hx]

end Cert.Proj
-- ==== Proof.LibRank3Layout.lean ====
/-
  Three layout operations of rank three read at an index given by coordinates.

  A matrix `[a, b]` viewed as `[a, b, 1]` (a trailing unit axis added by a shape cast) keeps its row-major
  position, so entry `(i, j, 0)` of the view is entry `(i, j)` of the matrix. A broadcast never moves a
  coordinate: it reads the operand at the same coordinate on every axis the operand really has, and at `0` on
  an axis of extent one. So `[a, b, 1]` broadcast to `[a, b, c]` forgets the last coordinate, and
  `[1, b, c]` broadcast to `[a, b, c]` forgets the first.

  Together: `x[:, :, None]` stretched along a new last axis reads `x (i, j)` at `(i, j, k)`, and
  `w[None, :, :]` stretched along a new first axis reads `w (j, k)` at `(p, j, k)`.
-/
import Idealize.ShloMosaic.Lib.ValueLayout

namespace Cert.Rank3Layout

open Idealize.ShloMosaic Idealize.ShloMosaic.ValueIdx

variable {α : Type}

/-- An `[a, b]` array cast to `[a, b, 1]` reads, at `(i, j, u)`, the operand at `(i, j)`, whatever the unit
    coordinate `u`: both sit at row-major position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`: the last
    axis has extent one in the operand, the other two are read where they are. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(p, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (k : Fin c) :
    broadcastTo ⟨3, ![a, b, c]⟩ v h (ix3 p j k) = v (ix3 (0 : Fin 1) j k) := by
  refine broadcastTo_apply v h (ix3 p j k) (ix3 (0 : Fin 1) j k) fun ax => ?_
  match ax with
  | ⟨0, _⟩ =>
    show (0 : ℕ) = if (1 : ℕ) = 1 then 0 else p.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- The column view of a matrix stretched along a new last axis: `x[:, :, None]` broadcast to `[a, b, c]` reads
    `x (i, j)` at `(i, j, k)`. -/
theorem column_stretch_apply {a b c : ℕ} (x : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The slab view of a matrix stretched along a new first axis: `w[None, :, :]` broadcast to `[a, b, c]` reads
    `w (j, k)` at `(p, j, k)`. -/
theorem slab_stretch_apply {a b c : ℕ} (w : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (p : Fin a) (j : Fin b) (k : Fin c) :
    broadcastTo ⟨3, ![a, b, c]⟩ (shapeCast ⟨3, ![1, b, c]⟩ w hc) hb (ix3 p j k) = w (ix2 j k) :=
  (broadcastTo_1bc_abc_apply _ hb p j k).trans (shapeCast_ab_1ab_apply w hc 0 j k)

end Cert.Rank3Layout
-- ==== Proof.BlockValue.lean ====
/-
  What one grid point leaves in the output's staging buffer.

  At a grid point the body holds a block `x0` of 512 rows of `x` and the whole of `W` and `b` (`x1`, `x2`). It works
  through the block in four chunks of 128 rows: chunk `k` loads rows `128 k … 128 k + 127` of `x0`, views them as a
  column `[128, 32, 1]` stretched along the 256 features, views `W` and `b` as slabs `[1, 32, 256]` stretched along the
  128 rows, multiplies, adds, and stores the `[128, 32, 256]` result at rows `128 k …` of the output block. (In the third
  chunk the product and the slab of `b` are computed a little earlier than the sum; the value is the same.)

  So each chunk's stored value is `affine` of its 128 rows (`chunk_eq`), and since output rows depend only on the matching
  input rows, a chunk stored at row offset `o` is `affine x0 W b` restricted to rows `o … o + 127` (`piece_eq`). The four
  chunks tile the block, hence the block holds `affine x0 W b` (`block_eq`), at any float instance.
-/
import proofs.«155557_j30605936951454_2_alg».proof.Proof.Gen.KernelIdeal.Frame
import proofs.«155557_j30605936951454_2_alg».proof.Proof.Spec
import proofs.«155557_j30605936951454_2_alg».proof.Proof.LibRank3Layout
import Idealize.ShloMosaic.Lib.Pipeline.Value
import Idealize.ShloMosaic.Lib.Tactic

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.ValueIdx Cert.Proj Cert.Rank3Layout

variable {F : FTy → Type} [FloatOps F]

theorem zero2 : (![0, 0] : Fin 2 → Nat) = fun _ => 0 := funext fun a => by fin_cases a <;> rfl

/-! ## One chunk -/

/-- A chunk's arithmetic: the column view of 128 rows `xc` times the slab view of `w`, plus the slab view of `bb`, is
    `affine xc w bb`: at `(r, i, f)` the column reads `xc (r, i)` and the slabs read `w (i, f)` and `bb (i, f)`. -/
theorem chunk_eq (w bb : Vec F S32x256 .f32) (xc : Vec F S128x32 .f32) :
    addf (mulf (broadcastTo S128x32x256 (shapeCast S128x32x1 xc shapeCasts_S128x32_S128x32x1) broadcasts_S128x32x1_S128x32x256)
        (broadcastTo S128x32x256 (shapeCast S1x32x256 w shapeCasts_S32x256_S1x32x256) broadcasts_S1x32x256_S128x32x256))
      (broadcastTo S128x32x256 (shapeCast S1x32x256 bb shapeCasts_S32x256_S1x32x256) broadcasts_S1x32x256_S128x32x256)
      = affine (F := F) xc w bb := by
  funext y
  obtain ⟨r, i, f, rfl⟩ : ∃ (r : Fin 128) (i : Fin 32) (f : Fin 256), y = ix3 r i f := ⟨y 0, y 1, y 2, eq_ix3 y⟩
  rw [affine_ix3]
  show FloatOps.addf (FloatOps.mulf
      (broadcastTo S128x32x256 (shapeCast S128x32x1 xc shapeCasts_S128x32_S128x32x1) broadcasts_S128x32x1_S128x32x256 (ix3 r i f))
      (broadcastTo S128x32x256 (shapeCast S1x32x256 w shapeCasts_S32x256_S1x32x256) broadcasts_S1x32x256_S128x32x256 (ix3 r i f)))
    (broadcastTo S128x32x256 (shapeCast S1x32x256 bb shapeCasts_S32x256_S1x32x256) broadcasts_S1x32x256_S128x32x256 (ix3 r i f)) = _
  rw [column_stretch_apply xc shapeCasts_S128x32_S128x32x1 broadcasts_S128x32x1_S128x32x256 r i f,
    slab_stretch_apply w shapeCasts_S32x256_S1x32x256 broadcasts_S1x32x256_S128x32x256 r i f,
    slab_stretch_apply bb shapeCasts_S32x256_S1x32x256 broadcasts_S1x32x256_S128x32x256 r i f]

/-- The four stored values are that arithmetic (the first, second and fourth chunk literally; the third with its product
    and its slab of `b` formed before the sum). -/
theorem first_chunk (w bb : Vec F S32x256 .f32) (xc : Vec F S128x32 .f32) : k0_pay3 w bb xc = affine (F := F) xc w bb :=
  chunk_eq w bb xc
theorem second_chunk (w bb : Vec F S32x256 .f32) (xc : Vec F S128x32 .f32) : k0_pay4 w bb xc = affine (F := F) xc w bb :=
  chunk_eq w bb xc
theorem third_chunk (w bb : Vec F S32x256 .f32) (xc : Vec F S128x32 .f32) :
    k0_pay1 (k0_pay5 w xc) (k0_pay6 bb) = affine (F := F) xc w bb :=
  chunk_eq w bb xc
theorem fourth_chunk (w bb : Vec F S32x256 .f32) (xc : Vec F S128x32 .f32) : k0_pay2 w bb xc = affine (F := F) xc w bb :=
  chunk_eq w bb xc

/-! ## A chunk in its place in the block -/

/-- Rows `o … o + 127` of the block: `affine` of those rows of `x0` is `affine x0` read at rows `o …`. -/
theorem piece_eq (x0 : Vec F S512x32 .f32) (x1 x2 : Vec F S32x256 .f32) (o : ℕ)
    (inb1 : ∀ a, (![o, 0] : Fin 2 → ℕ) a + S128x32.size a ≤ S512x32.size a)
    (inb2 : ∀ a, (![o, 0, 0] : Fin 3 → ℕ) a + S128x32x256.size a ≤ S512x32x256.size a) (x : S128x32x256.Idx) :
    affine (F := F) (View.ld x0 (Rect.unit (s := S512x32) ![o, 0] S128x32.size inb1)) x1 x2 x
      = affine (F := F) x0 x1 x2 ((Rect.unit (s := S512x32x256) ![o, 0, 0] S128x32x256.size inb2).emb x) := by
  obtain ⟨r, i, f, rfl⟩ : ∃ (r : Fin 128) (i : Fin 32) (f : Fin 256), x = ix3 r i f := ⟨x 0, x 1, x 2, eq_ix3 x⟩
  have h128 : o + 128 ≤ 512 := inb2 0
  have ho : o + r.val < 512 := by have := r.isLt; omega
  have he : (Rect.unit (s := S512x32x256) ![o, 0, 0] S128x32x256.size inb2).emb (ix3 r i f)
      = ix3 (⟨o + r.val, ho⟩ : Fin 512) i f :=
    funext fun a => Fin.ext (by
      match a with
      | ⟨0, _⟩ => show o + 1 * r.val = o + r.val; omega
      | ⟨1, _⟩ => show 0 + 1 * i.val = i.val; omega
      | ⟨2, _⟩ => show 0 + 1 * f.val = f.val; omega)
  rw [he]
  refine affine_rows x0 _ x1 x2 r (⟨o + r.val, ho⟩ : Fin 512) i f ?_
  show x0 ((Rect.unit (s := S512x32) ![o, 0] S128x32.size inb1).idx (ix2 r i)) = x0 (ix2 (⟨o + r.val, ho⟩ : Fin 512) i)
  refine congrArg x0 (funext fun a => Fin.ext ?_)
  match a with
  | ⟨0, _⟩ => show o + 1 * r.val = o + r.val; omega
  | ⟨1, _⟩ => show 0 + 1 * i.val = i.val; omega

/-! ## The block -/

/-- After the body at a grid point, the output's staging buffer holds `affine` of the point's input blocks: its four
    stored chunks tile the block, and each is `affine x0 x1 x2` on its rows. -/
theorem block_eq (c : Dev nD) (i : grid0.Coords) (arg1 : Memref sig .tc .vmem S512x32 .f32) (harg1 : arg1.IsWhole)
    (arg2 : Memref sig .tc .vmem S32x256 .f32) (harg2 : arg2.IsWhole) (arg3 : Memref sig .tc .vmem S32x256 .f32) (harg3 : arg3.IsWhole)
    (arg4 : Memref sig .tc .vmem S512x32x256 .f32) (harg4 : arg4.IsWhole)
    (x0 : Vec F S512x32 .f32) (x1 : Vec F S32x256 .f32) (x2 : Vec F S32x256 .f32) :
    out0_A_3 c i arg1 harg1 arg2 harg2 arg3 harg3 arg4 harg4 x0 x1 x2 = affine (F := F) x0 x1 x2 := by
  unfold out0_A_3
  rw [View.read_writes_eq_canon _ _ _ (cover0_A_3 c i arg1 harg1 arg2 harg2 arg3 harg3 arg4 harg4 x0 x1 x2)]
  funext y
  refine View.canon_apply_of_pieces (affine (F := F) x0 x1 x2) _ ?_ y
    (cover0_A_3 c i arg1 harg1 arg2 harg2 arg3 harg3 arg4 harg4 x0 x1 x2 y)
  unfold kernelRun0_A
  dsimp only
  sl_unfold_words
  simp only [View.readAt_eq_ld, harg1.read_unread, harg2.read_unread, harg3.read_unread,
    View.ld_unit_zero (S := S32x256) zero2]
  intro p hp x
  simp only [List.mem_cons, List.mem_nil_iff, or_false] at hp
  rcases hp with rfl | rfl | rfl | rfl
  · exact (congrFun (fourth_chunk x1 x2 _) x).trans (piece_eq x0 x1 x2 384 (by decide) (by decide) x)
  · exact (congrFun (third_chunk x1 x2 _) x).trans (piece_eq x0 x1 x2 256 (by decide) (by decide) x)
  · exact (congrFun (second_chunk x1 x2 _) x).trans (piece_eq x0 x1 x2 128 (by decide) (by decide) x)
  · exact (congrFun (first_chunk x1 x2 _) x).trans (piece_eq x0 x1 x2 0 (by decide) (by decide) x)

end Cert.KernelIdeal.BlockValue

end
-- ==== Proof.ArrayValue.lean ====
/-
  From blocks to the whole array.

  The grid has 32 points. At point `t` the input window of `x` holds rows `512 t … 512 t + 511` (all 32 inputs), the
  windows of `W` and `b` hold the whole matrices, and the output window covers rows `512 t … 512 t + 511` of the result
  (all inputs, all features). The body leaves `affine` of the point's input blocks in the output block (`block_eq`), and
  output rows depend only on the matching rows of `x`, so what point `t` writes back is block `t` of
  `affine x W b` taken over the whole arrays (`written_back`). Every row `r` of the result lies in the block of point
  `r / 512`, and every point writes back; so the result array ends holding `affine x W b` (`result_array`, `run`).
-/
import proofs.«155557_j30605936951454_2_alg».proof.Proof.Gen.KernelIdeal.Value
import proofs.«155557_j30605936951454_2_alg».proof.Proof.BlockValue

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.Proj

variable {F : FTy → Type} [FloatOps F]
variable (m : (ℓ : Loc nD τ sig) → Buf (Elt F) ℓ) (ρ : Dev nD → PrngReg)

/-! ## Which rows a point sees -/

/-- The block indices at point `t`, decided over the 32 points: the windows of `x` and of the result are at block row
    `t`; every other block index is `0`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

theorem point_lt (t : Fin cfg0.N) : t.val < 32 := Nat.lt_of_lt_of_eq t.isLt N_0

/-- Row `r` of block `k` is a row of the array. -/
theorem row_lt {k : ℕ} (hk : k < 32) (r : Fin 512) : 512 * k + r.val < 16384 := by have := r.isLt; omega

/-- The block of `x` at point `t` holds rows `512 t …` of `x`. -/
theorem x_block (c : Dev nD) (t : Fin cfg0.N) (r : Fin 512) (i : Fin 32) :
    (iblk m c 0 t : Vec F S512x32 .f32) (ix2 r i)
      = (V m c main_arg0 : Vec F S16384x32 .f32) (ix2 (⟨512 * t.val + r.val, row_lt (point_lt t) r⟩ : Fin 16384) i) := by
  obtain ⟨e0, e1, -⟩ := block_indices t
  show V m c main_arg0 (((cfg0.win 0).blk t).view.emb (ix2 r i)) = V m c main_arg0 _
  refine congrArg (V m c main_arg0) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 32 + 1 * i.val = i.val; rw [e1]; omega

/-- The block of `W` at every point is `W`; -/
theorem W_block (c : Dev nD) (t : Fin cfg0.N) : (iblk m c 1 t : Vec F S32x256 .f32) = V m c main_arg1 := by
  obtain ⟨-, -, e2, e3, -⟩ := block_indices t
  refine funext fun (j : S32x256.Idx) => ?_
  show V m c main_arg1 (((cfg0.win 1).blk t).view.emb j) = V m c main_arg1 j
  refine congrArg (V m c main_arg1) (funext fun a => Fin.ext ?_)
  match a with
  | ⟨0, _⟩ => show win0_1.index t (0 : Fin 2) * 32 + 1 * (j 0).val = (j 0).val; rw [e2]; omega
  | ⟨1, _⟩ => show win0_1.index t (1 : Fin 2) * 256 + 1 * (j 1).val = (j 1).val; rw [e3]; omega

/-- and the block of `b` is `b`. -/
theorem b_block (c : Dev nD) (t : Fin cfg0.N) : (iblk m c 2 t : Vec F S32x256 .f32) = V m c main_arg2 := by
  obtain ⟨-, -, -, -, e4, e5, -⟩ := block_indices t
  refine funext fun (j : S32x256.Idx) => ?_
  show V m c main_arg2 (((cfg0.win 2).blk t).view.emb j) = V m c main_arg2 j
  refine congrArg (V m c main_arg2) (funext fun a => Fin.ext ?_)
  match a with
  | ⟨0, _⟩ => show win0_2.index t (0 : Fin 2) * 32 + 1 * (j 0).val = (j 0).val; rw [e4]; omega
  | ⟨1, _⟩ => show win0_2.index t (1 : Fin 2) * 256 + 1 * (j 1).val = (j 1).val; rw [e5]; omega

/-! ## What a point writes back -/

/-- Over plain arrays: if `xb` holds rows `512 k …` of `X` then `affine xb W b` at row `r` is `affine X W b` at row
    `512 k + r`. -/
theorem block_of_affine (X : Vec F S16384x32 .f32) (W b : Vec F S32x256 .f32) (xb : Vec F S512x32 .f32) (wb bb : Vec F S32x256 .f32)
    (k : ℕ) (hk : k < 32)
    (hx : ∀ (r : Fin 512) (i : Fin 32), xb (ix2 r i) = X (ix2 (⟨512 * k + r.val, row_lt hk r⟩ : Fin 16384) i))
    (hw : wb = W) (hb : bb = b) (r : Fin 512) (i : Fin 32) (f : Fin 256) :
    affine (F := F) xb wb bb (ix3 r i f) = affine (F := F) X W b (ix3 (⟨512 * k + r.val, row_lt hk r⟩ : Fin 16384) i f) := by
  subst hw hb
  exact affine_rows X xb wb bb r _ i f (hx r i)

/-- WHAT POINT `t` WRITES BACK is block `t` of `affine x W b` over the arrays as the region finds them. -/
theorem written_back (c : Dev nD) (t : Fin cfg0.N) :
    (dats m 0 c).flushed 3 t
      = ((cfg0.win 3).blk t).view.read (Elt F) (affine (F := F) (V m c main_arg0) (V m c main_arg1) (V m c main_arg2)) := by
  rw [Cert.KernelIdeal.Value.flushed3]
  have hb : outsAt0 m c t = affine (F := F) (iblk m c 0 t) (iblk m c 1 t) (iblk m c 2 t) :=
    BlockValue.block_eq c (grid0.coords t) (ms0_0 t) (hs0_0 t) (ms0_1 t) (hs0_1 t) (ms0_2 t) (hs0_2 t) (ms0_3 t) (hs0_3 t)
      (iblk m c 0 t) (iblk m c 1 t) (iblk m c 2 t)
  rw [hb]
  obtain ⟨-, -, -, -, -, -, e6, e7, e8⟩ := block_indices t
  refine funext fun (j : S512x32x256.Idx) => ?_
  obtain ⟨r, i, f, rfl⟩ : ∃ (r : Fin 512) (i : Fin 32) (f : Fin 256), j = ix3 r i f := ⟨j 0, j 1, j 2, eq_ix3 j⟩
  show affine (F := F) (iblk m c 0 t) (iblk m c 1 t) (iblk m c 2 t) (ix3 r i f)
    = affine (F := F) (V m c main_arg0) (V m c main_arg1) (V m c main_arg2) (((cfg0.win 3).blk t).view.emb (ix3 r i f))
  have he : ((cfg0.win 3).blk t).view.emb (ix3 r i f)
      = ix3 (⟨512 * t.val + r.val, row_lt (point_lt t) r⟩ : Fin 16384) i f :=
    funext fun a => Fin.ext (by
      match a with
      | ⟨0, _⟩ => show win0_3.index t (0 : Fin 3) * 512 + 1 * r.val = 512 * t.val + r.val; rw [e6]; omega
      | ⟨1, _⟩ => show win0_3.index t (1 : Fin 3) * 32 + 1 * i.val = i.val; rw [e7]; omega
      | ⟨2, _⟩ => show win0_3.index t (2 : Fin 3) * 256 + 1 * f.val = f.val; rw [e8]; omega)
  rw [he]
  exact block_of_affine (V m c main_arg0) (V m c main_arg1) (V m c main_arg2) (iblk m c 0 t) (iblk m c 1 t) (iblk m c 2 t)
    t.val (point_lt t) (x_block m c t) (W_block m c t) (b_block m c t) r i f

/-! ## The cover -/

/-- An index of the result is in point `t`'s block iff each coordinate is in the block's range on its axis. -/
theorem mem_block (t : Fin cfg0.N) (i : S16384x32x256.Idx) :
    i ∈ ((cfg0.win 3).blk t).view.set ↔ ∀ a : Fin 3, win0_3.index t a * S512x32x256.size a ≤ (i a).val
      ∧ (i a).val < win0_3.index t a * S512x32x256.size a + S512x32x256.size a := by
  show i ∈ ((View.whole main_v0).slice (win0_3.rect t)).set ↔ _
  rw [View.set_slice_whole, Rect.mem_set_unit]
  exact Iff.rfl

/-- Row `r` of the result is written back by point `r / 512`. -/
theorem covered (i : S16384x32x256.Idx) :
    ∃ t : Fin cfg0.N, (cfg0.win 3).flush t = true ∧ i ∈ ((cfg0.win 3).blk t).view.set := by
  have h0 : (i 0).val < 16384 := (i 0).isLt
  have h1 : (i 1).val < 32 := (i 1).isLt
  have h2 : (i 2).val < 256 := (i 2).isLt
  obtain ⟨t, ht⟩ : ∃ t : Fin cfg0.N, t.val = (i 0).val / 512 :=
    ⟨⟨(i 0).val / 512, Nat.lt_of_lt_of_eq (by omega : (i 0).val / 512 < 32) N_0.symm⟩, rfl⟩
  obtain ⟨-, -, -, -, -, -, e6, e7, e8⟩ := block_indices t
  refine ⟨t, flush0_3 t, ?_⟩
  rw [mem_block]
  intro a
  match a with
  | ⟨0, _⟩ =>
    show win0_3.index t (0 : Fin 3) * 512 ≤ (i 0).val ∧ (i 0).val < win0_3.index t (0 : Fin 3) * 512 + 512
    rw [e6, ht]; omega
  | ⟨1, _⟩ =>
    show win0_3.index t (1 : Fin 3) * 32 ≤ (i 1).val ∧ (i 1).val < win0_3.index t (1 : Fin 3) * 32 + 32
    rw [e7]; omega
  | ⟨2, _⟩ =>
    show win0_3.index t (2 : Fin 3) * 256 ≤ (i 2).val ∧ (i 2).val < win0_3.index t (2 : Fin 3) * 256 + 256
    rw [e8]; omega

/-! ## The array, and the run -/

/-- THE RESULT ARRAY after the run is `affine x W b` of the arrays as the region finds them. -/
theorem result_array (c : Dev nD) :
    (dats m 0 c).arrAt 3 cfg0.N = affine (F := F) (V m c main_arg0) (V m c main_arg1) (V m c main_arg2) :=
  (dats m 0 c).arrAt_eq_of_cover 3 (affine (F := F) (V m c main_arg0) (V m c main_arg1) (V m c main_arg2))
    (fun t _ => written_back m c t) covered

/-- The kernel's run, read: every weakly fair execution ends with the result at `affine` of the three arguments as
    launched, and the arguments unchanged. -/
theorem run : θ_run defs (onTc (τ := τ) (main (F := F))) ⟨m, fun _ => 0, ρ⟩ fun r => ∀ c : Dev nD,
      r.2.mem ((c : Thread nD τ).loc main_v0)
        = affine (F := F) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩)
    (Cert.KernelIdeal.Value.run_blocks m ρ)

end Cert.KernelIdeal.ArrayValue

end
-- ==== Proof.RefValue.lean ====
/-
  The reference computes `affine`.

  The reference builds its result by layout operations followed by one multiplication and one addition: `x` gets a
  trailing unit axis and is stretched along the 256 features; `W` and `b` get a leading unit axis and are stretched
  along the 16384 rows; then `x' * W' + b'` entry by entry. A stretch reads its operand at the same coordinates on the
  axes the operand has and at `0` on a unit axis, so at `(r, i, f)` the three stretched arrays read `x (r, i)`,
  `W (i, f)` and `b (i, f)`. That is the formula of `Cert.Proj.affine`, at any float instance.
-/
import proofs.«155557_j30605936951454_2_alg».proof.Proof.Gen.ReferenceIdeal.Read
import proofs.«155557_j30605936951454_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Proj

variable {F : FTy → Type} [FloatOps F]

/-- Through the two stretches of `x`, entry `(r, i, f)` of the result reads row `r`, input `i` of `x`. -/
theorem idx_x (r : Fin 16384) (i : Fin 32) (f : Fin 256) : idx_main_v0 (idx_main_v2 (ix3 r i f)) = ix2 r i :=
  funext fun a => Fin.ext (by match a with | ⟨0, _⟩ => rfl | ⟨1, _⟩ => rfl)

/-- Through the two stretches of `W`, entry `(r, i, f)` reads input `i`, feature `f` of `W`; -/
theorem idx_W (r : Fin 16384) (i : Fin 32) (f : Fin 256) : idx_main_v1 (idx_main_v3 (ix3 r i f)) = ix2 i f :=
  funext fun a => Fin.ext (by match a with | ⟨0, _⟩ => rfl | ⟨1, _⟩ => rfl)

/-- and through the two stretches of `b`, input `i`, feature `f` of `b`. -/
theorem idx_b (r : Fin 16384) (i : Fin 32) (f : Fin 256) : idx_main_v5 (idx_main_v6 (ix3 r i f)) = ix2 i f :=
  funext fun a => Fin.ext (by match a with | ⟨0, _⟩ => rfl | ⟨1, _⟩ => rfl)

/-- The reference's last stage is `affine` of its three arguments, entry by entry. -/
theorem ref_is_affine (x : (⟨S16384x32, .f32⟩ : BufTy).Contents (Elt F)) (W b : (⟨S32x256, .f32⟩ : BufTy).Contents (Elt F)) :
    val_main_v7 (F := F) x W b = affine (F := F) x W b := by
  funext y
  obtain ⟨r, i, f, rfl⟩ : ∃ (r : Fin 16384) (i : Fin 32) (f : Fin 256), y = ix3 r i f := ⟨y 0, y 1, y 2, eq_ix3 y⟩
  rw [val_main_v7_apply, val_main_v4_apply, val_main_v2_apply, val_main_v0_apply, val_main_v3_apply, val_main_v1_apply,
    val_main_v6_apply, val_main_v5_apply, idx_x, idx_W, idx_b, affine_ix3]

end Cert.ReferenceIdeal.RefValue

end
-- ==== Proof.lean ====
/-
  The kernel and its reference compute the same array over the extended reals.

  Both programs take `x : [16384, 32]`, `W, b : [32, 256]` and return `out : [16384, 32, 256]` with

      out[r, i, f] = x[r, i] * W[i, f] + b[i, f].

  The reference does it in one piece: `x` is given a trailing unit axis and stretched along the features, `W` and `b` a
  leading unit axis and stretched along the rows, then one multiplication and one addition entry by entry
  (`RefValue.ref_is_affine`). The kernel does it in 32 grid points of 512 rows, each point in four chunks of 128 rows,
  with the same views, the same product and the same sum per chunk (`BlockValue.block_eq`); the chunks tile a block and
  the blocks tile the array, and an output row depends only on the matching row of `x`, so the result array ends holding
  the same function of the whole arguments (`ArrayValue.run`). The two sides apply the same two operations to the same
  three entries in the same order, so no law of arithmetic is needed to join them and the inputs' finiteness is never used:
  the equality holds at every float instance, in particular over the extended reals.

  The idealized kernel is the kernel's own text (nothing was rewritten), so `preserves` has nothing to state. The three
  frames: each kernel program's run leaves its arguments unchanged, and the reference's run does.
-/
import proofs.«155557_j30605936951454_2_alg».proof.Defs
import proofs.«155557_j30605936951454_2_alg».proof.Proof.Gen.Kernel
import proofs.«155557_j30605936951454_2_alg».proof.Proof.Gen.Kernel.Skeleton
import proofs.«155557_j30605936951454_2_alg».proof.Proof.Gen.Kernel.Launch
import proofs.«155557_j30605936951454_2_alg».proof.Proof.Gen.Kernel.Points
import proofs.«155557_j30605936951454_2_alg».proof.Proof.Gen.Kernel.Frame
import proofs.«155557_j30605936951454_2_alg».proof.Proof.Gen.KernelIdeal
import proofs.«155557_j30605936951454_2_alg».proof.Proof.Gen.KernelIdeal.Skeleton
import proofs.«155557_j30605936951454_2_alg».proof.Proof.Gen.KernelIdeal.Launch
import proofs.«155557_j30605936951454_2_alg».proof.Proof.Gen.KernelIdeal.Points
import proofs.«155557_j30605936951454_2_alg».proof.Proof.Gen.KernelIdeal.Frame
import proofs.«155557_j30605936951454_2_alg».proof.Proof.Gen.ReferenceIdeal
import proofs.«155557_j30605936951454_2_alg».proof.Proof.Gen.Pre_finite_inputs
import proofs.«155557_j30605936951454_2_alg».proof.Proof.Gen.KernelIdeal.Value
import proofs.«155557_j30605936951454_2_alg».proof.Proof.Gen.ReferenceIdeal.Run
import proofs.«155557_j30605936951454_2_alg».proof.Proof.Gen.ReferenceIdeal.Read
import proofs.«155557_j30605936951454_2_alg».proof.Proof.ArrayValue
import proofs.«155557_j30605936951454_2_alg».proof.Proof.RefValue
import Idealize.ShloMosaic.Adequacy
import Idealize.ShloMosaic.Init

noncomputable section

namespace Cert.Proof

open Idealize.ShloMosaic Idealize.SL.Sem

/-- The word-level kernel runs to the end and leaves `x`, `W`, `b` as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run ends with its arguments unchanged (its result is not needed here). -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From arguments that agree, the kernel's result array ends at `affine x W b` and so does the reference's: at
    `(r, i, f)` both are `x (r, i) * W (i, f) + b (i, f)`. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_is_affine, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
